-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2000x26 : Shape := ⟨3, ![64, 2000, 26]⟩
abbrev S_ : Shape := ⟨0, ![]⟩

class Facts : Prop where
  bcast_S_S64x2000x26 : S_.BroadcastsInDim S64x2000x26 (![] : Fin 0 → Fin S64x2000x26.rank)
  reducesTo_S64x2000x26_S_d0_1_2 : S64x2000x26.ReducesTo [0, 1, 2] S_
  h_S_ : 0 < S_.numel

variable [Facts]

def fn {F : FTy → Type} [FloatOps F] (main_arg0 : FVec F S64x2000x26 .f32) : IVec S_ 1 :=
  let main_v0 : FVec F S64x2000x26 .f32 := Host.absf main_arg0
  let main_cst : FVec F S_ .f32 := constant S_ .f32 0x7F800000#32
  let main_v1 : FVec F S64x2000x26 .f32 := broadcastInDim S64x2000x26 ![] bcast_S_S64x2000x26 main_cst
  let main_v2 : IVec S64x2000x26 1 := cmpf .olt main_v0 main_v1
  let main_c : IVec S_ 1 := constantI S_ 1 1#1
  let main_v3 : IVec S_ 1 := (fun x v => Host.reduce IntOp.andi x v reducesTo_S64x2000x26_S_d0_1_2 h_S_) main_v2 main_c
  main_v3
-- ==== Kernel.lean ====
abbrev S64x2000x26 : Shape := ⟨3, ![64, 2000, 26]⟩
abbrev S64x2000x494 : Shape := ⟨3, ![64, 2000, 494]⟩
abbrev S1x2000x26 : Shape := ⟨3, ![1, 2000, 26]⟩
abbrev S1x400x494 : Shape := ⟨3, ![1, 400, 494]⟩
abbrev S2018x26 : Shape := ⟨2, ![2018, 26]⟩
abbrev S9x26 : Shape := ⟨2, ![9, 26]⟩
abbrev S2000x26 : Shape := ⟨2, ![2000, 26]⟩
abbrev S418x26 : Shape := ⟨2, ![418, 26]⟩
abbrev S400x26 : Shape := ⟨2, ![400, 26]⟩
abbrev S400x494 : Shape := ⟨2, ![400, 494]⟩
abbrev S128000x494 : Shape := ⟨2, ![128000, 494]⟩

abbrev nBuf : Space → Nat
  | .hbm => 3
  | .vmem => 5
  | .smem => 0
  | _ => 0

abbrev bufTy : (tb : Table) → Fin (tcTables nBuf tb) → BufTy
  | .hbm, ⟨0, _⟩ => ⟨S64x2000x26, .f32⟩
  | .hbm, ⟨1, _⟩ => ⟨S64x2000x494, .f32⟩
  | .hbm, ⟨2, _⟩ => ⟨S128000x494, .f32⟩
  | .local _ .vmem, ⟨0, _⟩ => ⟨S1x2000x26, .f32⟩
  | .local _ .vmem, ⟨1, _⟩ => ⟨S1x2000x26, .f32⟩
  | .local _ .vmem, ⟨2, _⟩ => ⟨S1x400x494, .f32⟩
  | .local _ .vmem, ⟨3, _⟩ => ⟨S1x400x494, .f32⟩
  | .local _ .vmem, ⟨4, _⟩ => ⟨S2018x26, .f32⟩
  | _, _ => ⟨S64x2000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 5], ![false, false]⟩

def k0_mult1 (i : grid0.Coords) : BitVec 32 :=
  let arg1 : BitVec 32 := BitVec.ofNat 32 (i 1).val
  let c400_i32 : BitVec 32 := 400#32
  let v3 : BitVec 32 := Scalar.muli arg1 c400_i32
  v3
def k0_off1 (i : grid0.Coords) : Fin 2 → Nat :=
  let arg1 : BitVec 32 := BitVec.ofNat 32 (i 1).val
  let c400_i32 : BitVec 32 := 400#32
  let v3 : BitVec 32 := Scalar.muli arg1 c400_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x400x494 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x2000x26_S1x2000x26_0_0_0 : ∀ a, (![0, 0, 0] : Fin 3 → Nat) a + S1x2000x26.size a ≤ S1x2000x26.size a
  h_S1x2000x26 : 0 < S1x2000x26.numel
  shapeCasts_S1x2000x26_S2000x26 : S1x2000x26.ShapeCasts S2000x26
  concatenates_S9x26_S2000x26_S9x26_S2018x26_d0 : Shape.Concatenates [S9x26, S2000x26, S9x26] S2018x26 0
  inb_S2018x26_S2018x26_0_0 : ∀ a, (![0, 0] : Fin 2 → Nat) a + S2018x26.size a ≤ S2018x26.size a
  h_S2018x26 : 0 < S2018x26.numel
  shapeCasts_S2018x26_S2018x26 : S2018x26.ShapeCasts S2018x26
  h_S418x26 : 0 < S418x26.numel
  slices_S418x26_o0_0_S400x26 : S418x26.Slices ![0, 0] S400x26
  slices_S418x26_o1_0_S400x26 : S418x26.Slices ![1, 0] S400x26
  slices_S418x26_o2_0_S400x26 : S418x26.Slices ![2, 0] S400x26
  slices_S418x26_o3_0_S400x26 : S418x26.Slices ![3, 0] S400x26
  slices_S418x26_o4_0_S400x26 : S418x26.Slices ![4, 0] S400x26
  slices_S418x26_o5_0_S400x26 : S418x26.Slices ![5, 0] S400x26
  slices_S418x26_o6_0_S400x26 : S418x26.Slices ![6, 0] S400x26
  slices_S418x26_o7_0_S400x26 : S418x26.Slices ![7, 0] S400x26
  slices_S418x26_o8_0_S400x26 : S418x26.Slices ![8, 0] S400x26
  slices_S418x26_o9_0_S400x26 : S418x26.Slices ![9, 0] S400x26
  slices_S418x26_o10_0_S400x26 : S418x26.Slices ![10, 0] S400x26
  slices_S418x26_o11_0_S400x26 : S418x26.Slices ![11, 0] S400x26
  slices_S418x26_o12_0_S400x26 : S418x26.Slices ![12, 0] S400x26
  slices_S418x26_o13_0_S400x26 : S418x26.Slices ![13, 0] S400x26
  slices_S418x26_o14_0_S400x26 : S418x26.Slices ![14, 0] S400x26
  slices_S418x26_o15_0_S400x26 : S418x26.Slices ![15, 0] S400x26
  slices_S418x26_o16_0_S400x26 : S418x26.Slices ![16, 0] S400x26
  slices_S418x26_o17_0_S400x26 : S418x26.Slices ![17, 0] S400x26
  slices_S418x26_o18_0_S400x26 : S418x26.Slices ![18, 0] S400x26
  concatenates_S400x26_S400x26_S400x26_S400x26_S400x26_S400x26_S400x26_S400x26_S400x26_S400x26_S400x26_S400x26_S400x26_S400x26_S400x26_S400x26_S400x26_S400x26_S400x26_S400x494_d1 : Shape.Concatenates [S400x26, S400x26, S400x26, S400x26, S400x26, S400x26, S400x26, S400x26, S400x26, S400x26, S400x26, S400x26, S400x26, S400x26, S400x26, S400x26, S400x26, S400x26, S400x26] S400x494 1
  inb_S1x400x494_S1x400x494_0_0_0 : ∀ a, (![0, 0, 0] : Fin 3 → Nat) a + S1x400x494.size a ≤ S1x400x494.size a
  h_S1x400x494 : 0 < S1x400x494.numel
  shapeCasts_S1x400x494_S400x494 : S1x400x494.ShapeCasts S400x494
  shapeCasts_S400x494_S1x400x494 : S400x494.ShapeCasts S1x400x494
  shapeCasts_S64x2000x494_S128000x494 : S64x2000x494.ShapeCasts S128000x494
  hrank0 : 0 < grid0.rank
  k0_mult1_dvd : ∀ i : grid0.Coords, 8 ∣ (k0_mult1 i).toNat
  k0_off1_inb : ∀ i : grid0.Coords, ∀ a, (k0_off1 i) a + S418x26.size a ≤ S2018x26.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x26.size a ≤ S64x2000x26.size a
  hwx0_0 : ∀ i : grid0.Coords, EltTy.bits .f32 = 32 ∨ (Rect.block (s := S64x2000x26) S1x2000x26.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x400x494.size a ≤ S64x2000x494.size a
  hwx0_1 : ∀ i : grid0.Coords, EltTy.bits .f32 = 32 ∨ (Rect.block (s := S64x2000x494) S1x400x494.size (cc0_transform_1 i) (hinb0_1 i)).WholeWords (EltTy.packing .f32)

variable [Facts₀]

abbrev win0_0 : Pipeline.Window sig grid0 :=
  Pipeline.Window.ofSpec (Memref.whole main_arg0) S1x2000x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x400x494.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2000x26 : Shape := ⟨3, ![64, 2000, 26]⟩
abbrev S_ : Shape := ⟨0, ![]⟩
abbrev S64x2018x26 : Shape := ⟨3, ![64, 2018, 26]⟩
abbrev S2000 : Shape := ⟨1, ![2000]⟩
abbrev S2000x1 : Shape := ⟨2, ![2000, 1]⟩
abbrev S19 : Shape := ⟨1, ![19]⟩
abbrev S1x19 : Shape := ⟨2, ![1, 19]⟩
abbrev S2000x19 : Shape := ⟨2, ![2000, 19]⟩
abbrev S2000x19x1 : Shape := ⟨3, ![2000, 19, 1]⟩
abbrev S64x2000x19x26 : Shape := ⟨4, ![64, 2000, 19, 26]⟩
abbrev S128000x494 : Shape := ⟨2, ![128000, 494]⟩

abbrev nBuf : Space → Nat
  | .hbm => 21
  | .vmem => 0
  | .smem => 0
  | _ => 0

abbrev bufTy : (tb : Table) → Fin (tcTables nBuf tb) → BufTy
  | .hbm, ⟨0, _⟩ => ⟨S64x2000x26, .f32⟩
  | .hbm, ⟨1, _⟩ => ⟨S_, .i32⟩
  | .hbm, ⟨2, _⟩ => ⟨S_, .f32⟩
  | .hbm, ⟨3, _⟩ => ⟨S64x2018x26, .f32⟩
  | .hbm, ⟨4, _⟩ => ⟨S2000, .i32⟩
  | .hbm, ⟨5, _⟩ => ⟨S2000x1, .i32⟩
  | .hbm, ⟨6, _⟩ => ⟨S19, .i32⟩
  | .hbm, ⟨7, _⟩ => ⟨S1x19, .i32⟩
  | .hbm, ⟨8, _⟩ => ⟨S2000x19, .i32⟩
  | .hbm, ⟨9, _⟩ => ⟨S2000x19, .i32⟩
  | .hbm, ⟨10, _⟩ => ⟨S2000x19, .i32⟩
  | .hbm, ⟨11, _⟩ => ⟨S_, .i32⟩
  | .hbm, ⟨12, _⟩ => ⟨S2000x19, .i32⟩
  | .hbm, ⟨13, _⟩ => ⟨S2000x19, .i1⟩
  | .hbm, ⟨14, _⟩ => ⟨S_, .i32⟩
  | .hbm, ⟨15, _⟩ => ⟨S2000x19, .i32⟩
  | .hbm, ⟨16, _⟩ => ⟨S2000x19, .i32⟩
  | .hbm, ⟨17, _⟩ => ⟨S2000x19, .i32⟩
  | .hbm, ⟨18, _⟩ => ⟨S2000x19x1, .i32⟩
  | .hbm, ⟨19, _⟩ => ⟨S64x2000x19x26, .f32⟩
  | .hbm, ⟨20, _⟩ => ⟨S128000x494, .f32⟩
  | _, _ => ⟨S64x2000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  pads_S64x2000x26_S64x2018x26_000_990_000 : S64x2000x26.Pads (![0, 9, 0] : Fin 3 → Nat) ![0, 9, 0] ![0, 0, 0] S64x2018x26
  h_S_ : 0 < S_.numel
  bcast_S2000_S2000x1_0 : S2000.BroadcastsInDim S2000x1 (![0] : Fin 1 → Fin S2000x1.rank)
  bcast_S19_S1x19_1 : S19.BroadcastsInDim S1x19 (![1] : Fin 1 → Fin S1x19.rank)
  bcast_S2000x1_S2000x19_0_1 : S2000x1.BroadcastsInDim S2000x19 (![0, 1] : Fin 2 → Fin S2000x19.rank)
  bcast_S1x19_S2000x19_0_1 : S1x19.BroadcastsInDim S2000x19 (![0, 1] : Fin 2 → Fin S2000x19.rank)
  bcast_S_S2000x19 : S_.BroadcastsInDim S2000x19 (![] : Fin 0 → Fin S2000x19.rank)
  bcast_S2000x19_S2000x19x1_0_1 : S2000x19.BroadcastsInDim S2000x19x1 (![0, 1] : Fin 2 → Fin S2000x19x1.rank)
  shapeCasts_S64x2000x19x26_S128000x494 : S64x2000x19x26.ShapeCasts S128000x494
  gather_S64x2018x26_S2000x19x1_S64x2000x19x26_03_1_n_n_1_2_64126_wf : GatherDims.WF S64x2018x26 S2000x19x1 S64x2000x19x26 [0, 3] [1] [] [1] [] 2 ![64, 1, 26]

variable [Facts₀]

def gather_S64x2018x26_S2000x19x1_S64x2000x19x26_03_1_n_n_1_2_64126 : GatherDims S64x2018x26 S2000x19x1 S64x2000x19x26 where
  offsetDims := [0, 3]
  collapsedSliceDims := [1]
  operandBatchingDims := []
  startIndicesBatchingDims := []
  startIndexMap := [1]
  indexVectorDim := 2
  sliceSizes := ![64, 1, 26]
  wf := gather_S64x2018x26_S2000x19x1_S64x2000x19x26_03_1_n_n_1_2_64126_wf

class Facts : Prop extends Facts₀ where

variable [Facts]
-- ==== Proof.Pieces.lean ====
/-
  What the body leaves in the scratch and in the output block, in each of its two cases.

  At the first time tile of a batch (case A) the body stores the padded series into the whole scratch, then loads
  418 of its rows back — a load the store before it covers, so it reads that stored value — and stores their 19
  shifted copies into the whole output block. At the other time tiles (case B) the scratch holds what the tile
  before left, the body stores nothing into it, and the 418 rows are loaded from those contents.
-/
import proofs.«174363_j84963043050043_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Window

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 418 scratch rows the body loads at grid point i: those from the row offset the point computes. -/
def loaded (i : grid0.Coords) (s : Vec F S2018x26 .f32) : Vec F S418x26 .f32 :=
  View.ld s (Rect.unit (k0_off1 i) S418x26.size (k0_off1_inb i))

/-- Case A leaves the scratch at the value it stores: the one store covers the scratch. -/
theorem scratch_A (c : Dev nD) (i : grid0.Coords) (a2 : Memref sig .tc .vmem S1x2000x26 .f32) (h2 : a2.IsWhole)
    (a3 : Memref sig .tc .vmem S1x400x494 .f32) (h3 : a3.IsWhole) (a4 : Memref sig .tc .vmem S2018x26 .f32) (h4 : a4.IsWhole)
    (hc : cond0_0 i) (x0 : Vec F S1x2000x26 .f32) :
    sout0_A_0 c i a2 h2 a3 h3 a4 h4 hc x0 = k0_pay1 x0 := by
  unfold sout0_A_0
  rw [View.read_writes_eq_canon _ _ _ (scover0_A_0 c i a2 h2 a3 h3 a4 h4 hc x0)]
  unfold kernelRun0_A
  dsimp only
  sl_unfold_words
  rw [View.canon_unit_zero hz2]
  simp only [View.readAt_eq_ld, h2.read_unread, View.ld_unit_zero (S := S1x2000x26) hz3]

/-- Case A leaves the output block at the shifted copies of the rows loaded from the scratch's stored value. -/
theorem out_A (c : Dev nD) (i : grid0.Coords) (a2 : Memref sig .tc .vmem S1x2000x26 .f32) (h2 : a2.IsWhole)
    (a3 : Memref sig .tc .vmem S1x400x494 .f32) (h3 : a3.IsWhole) (a4 : Memref sig .tc .vmem S2018x26 .f32) (h4 : a4.IsWhole)
    (hc : cond0_0 i) (x0 : Vec F S1x2000x26 .f32) :
    out0_A_1 c i a2 h2 a3 h3 a4 h4 hc x0 = k0_pay2 (loaded i (k0_pay1 x0)) := by
  unfold out0_A_1
  rw [View.read_writes_eq_canon _ _ _ (cover0_A_1 c i a2 h2 a3 h3 a4 h4 hc x0)]
  unfold kernelRun0_A
  dsimp only
  sl_unfold_words
  rw [View.canon_unit_zero hz3]
  simp only [View.readAt_eq_ld, h2.read_unread, View.ld_unit_zero (S := S1x2000x26) hz3]
  rw [View.read_writes_eq_canon _ _ _ (fun y => ⟨_, List.mem_singleton_self _, View.mem_set_unit_zero hz2 Facts₀.inb_S2018x26_S2018x26_0_0 y⟩),
    View.canon_unit_zero hz2]
  rfl

/-- Case B leaves the output block at the shifted copies of the rows loaded from what the scratch held. -/
theorem out_B (c : Dev nD) (i : grid0.Coords) (a2 : Memref sig .tc .vmem S1x2000x26 .f32) (h2 : a2.IsWhole)
    (a3 : Memref sig .tc .vmem S1x400x494 .f32) (h3 : a3.IsWhole) (a4 : Memref sig .tc .vmem S2018x26 .f32) (h4 : a4.IsWhole)
    (hc : ¬cond0_0 i) (x0 : Vec F S1x2000x26 .f32) (xs0 : Vec F S2018x26 .f32) :
    out0_B_1 c i a2 h2 a3 h3 a4 h4 hc x0 xs0 = k0_pay2 (loaded i xs0) := by
  unfold out0_B_1
  rw [View.read_writes_eq_canon _ _ _ (cover0_B_1 c i a2 h2 a3 h3 a4 h4 hc x0 xs0)]
  unfold kernelRun0_B
  dsimp only
  rw [View.canon_unit_zero hz3]
  simp only [View.readAt_eq_ld, h4.read_unread]
  rfl

end Cert.KernelIdeal.Window

end
-- ==== Proof.Spec.lean ====
/-
  The sliding-window unfold, as functions of the argument array x : [64, 2000, 26].

  Batch b's series is padded with nine zero rows before and after (rows 0 … 2017, row p the series' row p - 9);
  entry (b, t, l) of the unfolded array [64, 2000, 494] is channel l % 26 of padded row t + l / 26: the 19
  consecutive rows t … t + 18 laid side by side. The result [128000, 494] is that array with its two leading
  axes merged: row i is batch i / 2000, time i % 2000. Nothing is computed, entries are only moved, so the
  functions are stated over any type of values, the padding value z a parameter.
-/
import Idealize.ShloMosaic.PureOps.Ideal
import Idealize.ShloMosaic.Lib.ValueIdx

noncomputable section

namespace Cert.Window

open Idealize.ShloMosaic Idealize.ShloMosaic.ValueIdx

variable {α : Type}

/-- Channel c of row p of batch b's zero-padded series (all three as naturals; z outside the ranges). -/
def padded (z : α) (x : (⟨3, ![64, 2000, 26]⟩ : Shape).Idx → α) (b p c : ℕ) : α :=
  if h : b < 64 ∧ 9 ≤ p ∧ p < 2009 ∧ c < 26 then x (ix3 ⟨b, h.1⟩ ⟨p - 9, by omega⟩ ⟨c, h.2.2.2⟩) else z

theorem padded_congr (z : α) (x : (⟨3, ![64, 2000, 26]⟩ : Shape).Idx → α) {b p c b' p' c' : ℕ}
    (hb : b = b') (hp : p = p') (hc : c = c') : padded z x b p c = padded z x b' p' c' := by
  subst hb; subst hp; subst hc; rfl

/-- Batch b's padded series as a [2018, 26] array. -/
def padRows (z : α) (x : (⟨3, ![64, 2000, 26]⟩ : Shape).Idx → α) (b : ℕ) : (⟨2, ![2018, 26]⟩ : Shape).Idx → α :=
  fun j => padded z x b (j 0).val (j 1).val

/-- The unfold, batch by batch: [64, 2000, 494]. -/
def unfold3 (z : α) (x : (⟨3, ![64, 2000, 26]⟩ : Shape).Idx → α) : (⟨3, ![64, 2000, 494]⟩ : Shape).Idx → α :=
  fun j => padded z x (j 0).val ((j 1).val + (j 2).val / 26) ((j 2).val % 26)

/-- The unfold with batch and time merged: [128000, 494]. -/
def unfold2 (z : α) (x : (⟨3, ![64, 2000, 26]⟩ : Shape).Idx → α) : (⟨2, ![128000, 494]⟩ : Shape).Idx → α :=
  fun i => padded z x ((i 0).val / 2000) ((i 0).val % 2000 + (i 1).val / 26) ((i 1).val % 26)

/-- A series block [1, 2000, 26] padded with nine rows of z before and after: [2018, 26]. -/
def padBlock (z : α) (y : (⟨3, ![1, 2000, 26]⟩ : Shape).Idx → α) : (⟨2, ![2018, 26]⟩ : Shape).Idx → α :=
  fun j => if h : 9 ≤ (j 0).val ∧ (j 0).val < 2009 then y (ix3 ⟨0, Nat.one_pos⟩ ⟨(j 0).val - 9, by omega⟩ (j 1)) else z

/-- The 19 row-shifted copies of the first 400 rows of a [418, 26] array, side by side: [1, 400, 494]. -/
def windows (s : (⟨2, ![418, 26]⟩ : Shape).Idx → α) : (⟨3, ![1, 400, 494]⟩ : Shape).Idx → α :=
  fun j => s (ix2 ⟨(j 1).val + (j 2).val / 26, by
      have h1 : (j 1).val < 400 := (j 1).isLt
      have h2 : (j 2).val < 494 := (j 2).isLt
      omega⟩ ⟨(j 2).val % 26, Nat.mod_lt _ (by decide)⟩)

end Cert.Window

end
-- ==== Proof.Payload.lean ====
/-
  The body's two stored values, as functions of what the body loads.

  The value stored into the scratch at the first time tile of a batch is the loaded series block with nine rows of
  +0.0 put before and after it (a concatenation along the row axis); the value stored into the output block is
  the concatenation, along the channel axis, of the 19 slices of 400 rows taken at row offsets 0 … 18 of the 418
  scratch rows the body loaded.
-/
import proofs.«174363_j84963043050043_2_alg».proof.Proof.Gen.KernelIdeal.Skeleton
import proofs.«174363_j84963043050043_2_alg».proof.Proof.Spec
import Idealize.ShloMosaic.Lib.Pipeline.Value
import Idealize.ShloMosaic.Lib.ValueIdx

noncomputable section

open Idealize.ShloMosaic Idealize.ShloMosaic.ValueIdx

namespace Cert.KernelIdeal.Window

open Cert.KernelIdeal Cert.KernelIdeal.Gen Cert.Window

variable {F : FTy → Type} [FloatOps F]

/-- The padding value the body splats: the word of +0.0. -/
abbrev zero : F .f32 := Scalar.ofBits .f32 0x00000000#32

/-- The scratch's stored value: row p is the padding value for p < 9 and for p ≥ 2009, and row p - 9 of the block
    in between — the row falls in the first, second or third piece of the concatenation. -/
theorem pay1_eq (x0 : Vec F S1x2000x26 .f32) : k0_pay1 x0 = padBlock (zero (F := F)) x0 := by
  funext j
  obtain ⟨p, q, rfl⟩ : ∃ (p : Fin 2018) (q : Fin 26), j = ix2 p q := ⟨j 0, j 1, eq_ix2 j⟩
  unfold k0_pay1
  rw [shapeCast_self]
  show _ = if h : 9 ≤ p.val ∧ p.val < 2009 then x0 (ix3 ⟨0, Nat.one_pos⟩ ⟨p.val - 9, by omega⟩ q) else zero
  have hp : p.val < 2018 := p.isLt
  by_cases h1 : p.val < 9
  · rw [dif_neg (show ¬(9 ≤ p.val ∧ p.val < 2009) by omega)]
    refine (concatenate_apply_piece (t := S2018x26) 0 _ _ (ix2 p q) 0 (by exact Nat.succ_pos _) S9x26 _ rfl rfl 0 rfl
      (ix2 ⟨p.val, h1⟩ q) (fun b hb => by match b with | ⟨0, _⟩ => exact absurd rfl hb | ⟨1, _⟩ => rfl)
      (by show 0 + p.val = p.val; omega)).trans ?_
    rfl
  · by_cases h2 : p.val < 2009
    · rw [dif_pos (show 9 ≤ p.val ∧ p.val < 2009 from ⟨by omega, h2⟩)]
      refine (concatenate_apply_piece (t := S2018x26) 0 _ _ (ix2 p q) 1 (by exact Nat.succ_lt_succ (Nat.succ_pos _)) S2000x26 _ rfl rfl 9 rfl
        (ix2 ⟨p.val - 9, by omega⟩ q) (fun b hb => by match b with | ⟨0, _⟩ => exact absurd rfl hb | ⟨1, _⟩ => rfl)
        (by show 9 + (p.val - 9) = p.val; omega)).trans ?_
      exact shapeCast_apply _ _ _ (ix3 ⟨0, Nat.one_pos⟩ ⟨p.val - 9, by omega⟩ q)
        (by rw [Shape.rowMajor_val_three, Shape.rowMajor_val_two]
            show (0 * 2000 + (p.val - 9)) * 26 + q.val = (p.val - 9) * 26 + q.val; omega)
    · rw [dif_neg (show ¬(9 ≤ p.val ∧ p.val < 2009) by omega)]
      refine (concatenate_apply_piece (t := S2018x26) 0 _ _ (ix2 p q) 2 (by exact Nat.succ_lt_succ (Nat.succ_lt_succ (Nat.succ_pos _))) S9x26 _ rfl rfl 2009 rfl
        (ix2 ⟨p.val - 2009, by omega⟩ q) (fun b hb => by match b with | ⟨0, _⟩ => exact absurd rfl hb | ⟨1, _⟩ => rfl)
        (by show 2009 + (p.val - 2009) = p.val; omega)).trans ?_
      rfl

/-- A slice of 400 rows at row offset n ≤ 18 fits in 418 rows. -/
theorem slice_fits (n : Fin 19) : S418x26.Slices ![n.val, 0] S400x26 :=
  ⟨rfl, fun a => by
    match a with
    | ⟨0, _⟩ => show n.val + 400 ≤ 418; have := n.isLt; omega
    | ⟨1, _⟩ => show 0 + 26 ≤ 26; omega⟩

/-- The output block's stored value: channel l of row r is channel l % 26 of row r + l / 26 of the loaded rows —
    piece l / 26 of the concatenation, which is the slice at row offset l / 26. -/
theorem pay2_eq (v6 : Vec F S418x26 .f32) : k0_pay2 v6 = windows v6 := by
  funext j
  obtain ⟨u, r, l, rfl⟩ : ∃ (u : Fin 1) (r : Fin 400) (l : Fin 494), j = ix3 u r l := ⟨j 0, j 1, j 2, eq_ix3 j⟩
  have hr : r.val < 400 := r.isLt
  have hl : l.val < 494 := l.isLt
  have hu : u.val = 0 := by have := u.isLt; omega
  unfold k0_pay2
  refine (shapeCast_apply _ _ _ (ix2 r l) (by
    rw [Shape.rowMajor_val_three, Shape.rowMajor_val_two]
    show r.val * 494 + l.val = (u.val * 400 + r.val) * 494 + l.val; rw [hu]; omega)).trans ?_
  show concatenate S400x494 1 (List.ofFn fun n : Fin 19 =>
    (⟨S400x26, extractStridedSlice S400x26 ![n.val, 0] v6 (slice_fits n)⟩ : (s : Shape) × (s.Idx → Elt F .f32))) _ (ix2 r l) = _
  refine (concatenate_ofFn_apply (t := S400x494) (s₁ := S400x26) (N := 19) 1
    (fun n : Fin 19 => extractStridedSlice S400x26 ![n.val, 0] v6 (slice_fits n)) _ rfl 26 rfl (ix2 r l) ⟨l.val / 26, by omega⟩ rfl
    (ix2 r ⟨l.val % 26, Nat.mod_lt _ (by decide)⟩) rfl
    (fun b hb => by match b with | ⟨0, _⟩ => rfl | ⟨1, _⟩ => exact absurd rfl hb)).trans ?_
  exact extractStridedSlice_apply _ _ _ _ _ (fun a => by
    match a with
    | ⟨0, _⟩ => show r.val + l.val / 26 = l.val / 26 + r.val; omega
    | ⟨1, _⟩ => show l.val % 26 = 0 + l.val % 26; omega)

end Cert.KernelIdeal.Window

end
-- ==== Proof.Tiles.lean ====
/-
  What the scratch and the output block hold after every grid point.

  The grid is 64 batches by 5 time tiles, time fastest: point t is batch t / 5, tile t % 5. The input window's
  block at point t is batch t / 5 of x (all 2000 rows); the scratch rows the body loads start at row (t % 5) * 400.
  So after every point t the scratch holds batch t / 5's zero-padded series — stored at the batch's first tile, kept
  by the four tiles after it — and the output block holds, at (r, l), channel l % 26 of padded row
  (t % 5) * 400 + r + l / 26 of that batch.
-/
import proofs.«174363_j84963043050043_2_alg».proof.Proof.Pieces
import proofs.«174363_j84963043050043_2_alg».proof.Proof.Payload

noncomputable section

open Idealize.ShloMosaic Idealize.ShloMosaic.TcCoe Idealize.SL.Sem Idealize.ShloMosaic.ValueIdx

namespace Cert.KernelIdeal.Window

open Cert.KernelIdeal Cert.KernelIdeal.Gen Cert.Window

variable {F : FTy → Type} [FloatOps F]
variable (m : (ℓ : Loc nD τ sig) → Buf (Elt F) ℓ)

theorem lt_320 (t : Fin cfg0.N) : t.val < 320 := lt_of_lt_of_eq t.isLt (show cfg0.N = 320 from N_0)

/-- The printed index maps and the body's row offset at every grid point, decided over the grid: point t is batch
    t / 5 and time tile t % 5. -/
theorem point_facts : ∀ t : Fin cfg0.N,
    win0_0.index t (0 : Fin 3) = t.val / 5 ∧ win0_0.index t (1 : Fin 3) = 0 ∧ win0_0.index t (2 : Fin 3) = 0
    ∧ win0_1.index t (0 : Fin 3) = t.val / 5 ∧ win0_1.index t (1 : Fin 3) = t.val % 5 ∧ win0_1.index t (2 : Fin 3) = 0
    ∧ k0_off1 (grid0.coords t) (0 : Fin 2) = t.val % 5 * 400 ∧ k0_off1 (grid0.coords t) (1 : Fin 2) = 0 :=
  (by decide +kernel : ∀ t : Fin grid0.N, _)

/-- The argument array as the region finds it. -/
abbrev arg (c : Dev nD) : S64x2000x26.Idx → F .f32 := V m c main_arg0

/-- The input block at point t is batch t / 5 of the argument. -/
theorem iblk_apply (c : Dev nD) (t : Fin cfg0.N) (y : S1x2000x26.Idx) :
    (iblk m c 0 t : Vec F S1x2000x26 .f32) y
      = arg m c (ix3 ⟨t.val / 5, by have := lt_320 t; omega⟩ (y 1) (y 2)) := by
  obtain ⟨e0, e1, e2, -⟩ := point_facts t
  unfold iblk
  rw [View.read_apply]
  show V m c main_arg0 _ = V m c main_arg0 _
  congr 1
  funext a
  apply Fin.ext
  match a with
  | ⟨0, _⟩ =>
    show win0_0.index t (0 : Fin 3) * 1 + 1 * (y 0).val = t.val / 5
    have : (y 0).val < 1 := (y 0).isLt
    rw [e0]; omega
  | ⟨1, _⟩ => show win0_0.index t (1 : Fin 3) * 2000 + 1 * (y 1).val = (y 1).val; rw [e1]; omega
  | ⟨2, _⟩ => show win0_0.index t (2 : Fin 3) * 26 + 1 * (y 2).val = (y 2).val; rw [e2]; omega

/-- So the input block at point t, padded, is batch t / 5's padded series. -/
theorem padBlock_iblk (z : F .f32) (c : Dev nD) (t : Fin cfg0.N) :
    padBlock z (iblk m c 0 t : Vec F S1x2000x26 .f32) = padRows z (arg m c) (t.val / 5) := by
  have hN := lt_320 t
  funext j
  unfold padBlock padRows padded
  by_cases h : 9 ≤ (j 0).val ∧ (j 0).val < 2009
  · rw [dif_pos h, dif_pos (show t.val / 5 < 64 ∧ 9 ≤ (j 0).val ∧ (j 0).val < 2009 ∧ (j 1).val < 26 from
      ⟨by omega, h.1, h.2, (j 1).isLt⟩)]
    exact iblk_apply m c t _
  · rw [dif_neg h, dif_neg (fun h' => h ⟨h'.2.1, h'.2.2.1⟩)]

/-- The 19 shifted copies of the rows loaded at point t from a scratch holding batch t / 5's padded series. -/
theorem tile_apply (z : F .f32) (x : S64x2000x26.Idx → F .f32) (t : Fin cfg0.N) (y : S1x400x494.Idx) :
    k0_pay2 (loaded (grid0.coords t) (padRows z x (t.val / 5))) y
      = padded z x (t.val / 5) (t.val % 5 * 400 + (y 1).val + (y 2).val / 26) ((y 2).val % 26) := by
  obtain ⟨-, -, -, -, -, -, o0, o1⟩ := point_facts t
  rw [pay2_eq]
  unfold windows loaded padRows
  show padded z x (t.val / 5) (k0_off1 (grid0.coords t) (0 : Fin 2) + 1 * ((y 1).val + (y 2).val / 26))
    (k0_off1 (grid0.coords t) (1 : Fin 2) + 1 * ((y 2).val % 26)) = _
  rw [o0, o1]
  exact padded_congr z x rfl (by omega) (by omega)

/-- Batch n / 5's padded series: what the scratch holds after point n. -/
def series (c : Dev nD) (n : ℕ) : Vec F S2018x26 .f32 := padRows zero (arg m c) (n / 5)

/-- What the output block holds after point t. -/
def tile (c : Dev nD) (t : Fin cfg0.N) : Vec F S1x400x494 .f32 :=
  k0_pay2 (loaded (grid0.coords t) (series m c t.val))

/-- Case A with the stored scratch value named: the scratch ends at it, the output block at the shifted copies of
    the rows loaded from it. -/
theorem first_tile (c : Dev nD) (i : grid0.Coords) (a2 : Memref sig .tc .vmem S1x2000x26 .f32) (h2 : a2.IsWhole)
    (a3 : Memref sig .tc .vmem S1x400x494 .f32) (h3 : a3.IsWhole) (a4 : Memref sig .tc .vmem S2018x26 .f32) (h4 : a4.IsWhole)
    (hc : cond0_0 i) (x0 : Vec F S1x2000x26 .f32) (s : Vec F S2018x26 .f32) (hs : k0_pay1 x0 = s) :
    (out0_A_1 c i a2 h2 a3 h3 a4 h4 hc x0, sout0_A_0 c i a2 h2 a3 h3 a4 h4 hc x0) = (k0_pay2 (loaded i s), s) := by
  subst hs
  rw [out_A, scratch_A]

/-- Case B with the kept scratch contents named. -/
theorem later_tile (c : Dev nD) (i : grid0.Coords) (a2 : Memref sig .tc .vmem S1x2000x26 .f32) (h2 : a2.IsWhole)
    (a3 : Memref sig .tc .vmem S1x400x494 .f32) (h3 : a3.IsWhole) (a4 : Memref sig .tc .vmem S2018x26 .f32) (h4 : a4.IsWhole)
    (hc : ¬cond0_0 i) (x0 : Vec F S1x2000x26 .f32) (xs0 s : Vec F S2018x26 .f32) (hs : xs0 = s) :
    (out0_B_1 c i a2 h2 a3 h3 a4 h4 hc x0 xs0, sout0_B_0 c i a2 h2 a3 h3 a4 h4 hc x0 xs0) = (k0_pay2 (loaded i s), s) := by
  subst hs
  rw [out_B]
  rfl

/-- A batch's first time tile stores the batch's padded series and reads its rows back. -/
theorem at_first (c : Dev nD) (t : Fin cfg0.N) (h0 : t.val % 5 = 0) :
    outsAt0 m c t.val t.isLt = (tile m c t, series m c t.val) := by
  have hs : k0_pay1 (iblk m c 0 t : Vec F S1x2000x26 .f32) = series m c t.val :=
    (pay1_eq (iblk m c 0 t : Vec F S1x2000x26 .f32)).trans (padBlock_iblk m zero c t)
  rw [outsAt0_A m c t h0]
  exact first_tile c (grid0.coords t) (ms0_0 t) (hs0_0 t) (ms0_1 t) (hs0_1 t) scM0_0 (Memref.isWhole_whole _)
    ((hcond0_0 t).mpr h0) (iblk m c 0 t) (series m c t.val) hs

/-- THE INVARIANT, by induction on the point: a batch's first tile establishes it, each later tile of the batch
    keeps the scratch and so keeps it (n / 5 is (n + 1) / 5 unless n + 1 starts a batch). -/
theorem outsAt_eq (c : Dev nD) : ∀ (n : ℕ) (h : n < cfg0.N), outsAt0 m c n h = (tile m c ⟨n, h⟩, series m c n)
  | 0, h => at_first m c ⟨0, h⟩ (Nat.zero_mod 5)
  | n + 1, h => by
    by_cases h0 : (n + 1) % 5 = 0
    · exact at_first m c ⟨n + 1, h⟩ h0
    · have ih := outsAt_eq c n (Nat.lt_of_succ_lt h)
      have hs : (outsAt0 m c n (Nat.lt_of_succ_lt h)).2 = series m c (n + 1) := by
        rw [ih]
        show padRows zero (arg m c) (n / 5) = padRows zero (arg m c) ((n + 1) / 5)
        rw [show n / 5 = (n + 1) / 5 by omega]
      rw [outsAt0_B m c ⟨n + 1, h⟩ h0]
      exact later_tile c (grid0.coords ⟨n + 1, h⟩) (ms0_0 ⟨n + 1, h⟩) (hs0_0 ⟨n + 1, h⟩) (ms0_1 ⟨n + 1, h⟩) (hs0_1 ⟨n + 1, h⟩)
        scM0_0 (Memref.isWhole_whole _) (fun hc => h0 ((hcond0_0 ⟨n + 1, h⟩).mp hc)) (iblk m c 0 ⟨n + 1, h⟩)
        (outsAt0 m c n (Nat.lt_of_succ_lt h)).2 (series m c (n + 1)) hs

/-- The output block after point t, entry by entry. -/
theorem tile_entry (c : Dev nD) (t : Fin cfg0.N) (y : S1x400x494.Idx) :
    tile m c t y = padded zero (arg m c) (t.val / 5) (t.val % 5 * 400 + (y 1).val + (y 2).val / 26) ((y 2).val % 26) :=
  tile_apply zero (arg m c) t y

end Cert.KernelIdeal.Window

end
-- ==== Proof.Result.lean ====
/-
  The kernel's result array, and its run.

  Every grid point writes its output block back, and block t of the [64, 2000, 494] array is batch t / 5, rows
  (t % 5) * 400 … + 399, all 494 channels: what point t writes there is the unfold of the specification at those
  indices, so the array ends holding the unfold (the blocks cover it: entry (b, r, l) is in point 5 b + r / 400's
  block). The host line after the region merges the two leading axes — entry (i, l) of the result reads entry
  (i / 2000, i % 2000, l), the same row-major position.
-/
import proofs.«174363_j84963043050043_2_alg».proof.Proof.Tiles
import Idealize.ShloMosaic.Lib.StableHlo.Run

noncomputable section

open Idealize.ShloMosaic Idealize.ShloMosaic.TcCoe Idealize.SL.Sem Idealize.ShloMosaic.ValueIdx
open Idealize.ShloMosaic.StableHlo

namespace Cert.KernelIdeal.Window

open Cert.KernelIdeal Cert.KernelIdeal.Gen Cert.Window

variable {F : FTy → Type} [FloatOps F]
variable (m : (ℓ : Loc nD τ sig) → Buf (Elt F) ℓ) (ρ : Dev nD → PrngReg)

/-- WHAT POINT t WRITES BACK is block t of the unfold of the argument. -/
theorem flushed_eq (c : Dev nD) (t : Fin cfg0.N) :
    (dats m 0 c).flushed 1 t = ((cfg0.win 1).blk t).view.read (Elt F) (unfold3 zero (arg m c)) := by
  show (cfg0.win 1).cut (grid0.coords t) ((dats m 0 c).after 1 t) = _
  rw [after0_1, outsAt_eq m c t.val t.isLt]
  obtain ⟨-, -, -, e0, e1, e2, -, -⟩ := point_facts t
  funext y
  show tile m c t y = unfold3 zero (arg m c) (((cfg0.win 1).blk t).view.emb y)
  rw [tile_entry]
  unfold unfold3
  refine padded_congr _ _ ?_ ?_ ?_
  · show t.val / 5 = win0_1.index t (0 : Fin 3) * 1 + 1 * (y 0).val
    have : (y 0).val < 1 := (y 0).isLt
    rw [e0]; omega
  · show t.val % 5 * 400 + (y 1).val + (y 2).val / 26
      = win0_1.index t (1 : Fin 3) * 400 + 1 * (y 1).val + (win0_1.index t (2 : Fin 3) * 494 + 1 * (y 2).val) / 26
    rw [e1, e2]; omega
  · show (y 2).val % 26 = (win0_1.index t (2 : Fin 3) * 494 + 1 * (y 2).val) % 26
    rw [e2]; omega

/-- An index of the array is in point t's block iff each coordinate is in the block's range on its axis. -/
theorem mem_blk (t : Fin cfg0.N) (i : S64x2000x494.Idx) :
    i ∈ ((cfg0.win 1).blk t).view.set ↔ ∀ a : Fin 3, win0_1.index t a * S1x400x494.size a ≤ (i a).val
      ∧ (i a).val < win0_1.index t a * S1x400x494.size a + S1x400x494.size a := by
  show i ∈ ((View.whole main_v0).slice (win0_1.rect t)).set ↔ _
  rw [View.set_slice_whole, Rect.mem_set_unit]
  exact Iff.rfl

/-- Every index is in some point's block: batch b, row r is point 5 b + r / 400's. -/
theorem covered (i : S64x2000x494.Idx) :
    ∃ t : Fin cfg0.N, (cfg0.win 1).flush t = true ∧ i ∈ ((cfg0.win 1).blk t).view.set := by
  have h0 : (i 0).val < 64 := (i 0).isLt
  have h1 : (i 1).val < 2000 := (i 1).isLt
  have h2 : (i 2).val < 494 := (i 2).isLt
  have hN : cfg0.N = 320 := N_0
  obtain ⟨t, ht⟩ : ∃ t : Fin cfg0.N, t.val = (i 0).val * 5 + (i 1).val / 400 :=
    ⟨⟨(i 0).val * 5 + (i 1).val / 400, by rw [hN]; omega⟩, rfl⟩
  obtain ⟨-, -, -, e0, e1, e2, -, -⟩ := point_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    rw [e0, ht]; omega
  | ⟨1, _⟩ =>
    show win0_1.index t (1 : Fin 3) * 400 ≤ (i 1).val ∧ (i 1).val < win0_1.index t (1 : Fin 3) * 400 + 400
    rw [e1, ht]; omega
  | ⟨2, _⟩ =>
    show win0_1.index t (2 : Fin 3) * 494 ≤ (i 2).val ∧ (i 2).val < win0_1.index t (2 : Fin 3) * 494 + 494
    rw [e2]; omega

/-- THE ARRAY after the region: the unfold of the argument. -/
theorem final (c : Dev nD) : (dats m 0 c).arrAt 1 cfg0.N = unfold3 zero (arg m c) :=
  (dats m 0 c).arrAt_eq_of_cover 1 (unfold3 zero (arg m c)) (fun t _ => flushed_eq m c t) covered

/-- Merging the two leading axes of the unfold. -/
theorem merge_eq {α : Type} (z : α) (x : S64x2000x26.Idx → α) :
    shapeCast S128000x494 (unfold3 z x) Facts₀.shapeCasts_S64x2000x494_S128000x494 = unfold2 z x := by
  funext i
  have h0 : (i 0).val < 128000 := (i 0).isLt
  refine (shapeCast_apply _ _ i (ix3 (⟨(i 0).val / 2000, by omega⟩ : Fin 64) (⟨(i 0).val % 2000, by omega⟩ : Fin 2000) (i 1)) (by
    rw [Shape.rowMajor_val_three, Shape.rowMajor_val_two]
    show ((i 0).val / 2000 * 2000 + (i 0).val % 2000) * 494 + (i 1).val = (i 0).val * 494 + (i 1).val
    omega)).trans ?_
  rfl

/-- THE RESULT: what the host line after the region leaves in the result buffer. -/
theorem tail_eq (c : Dev nD) :
    Pipeline.afterTail₀ cfgs (dats m) 0 (V0 m) [hostOps1] c main_v1 = unfold2 zero (arg m c) := by
  unfold Pipeline.afterTail₀
  show StableHlo.after hostOps1 _ (Proc.devRef .tc main_v1) = _
  after_results
  show shapeCast S128000x494 (Pipeline.withArrays spec0 c (V0 m c) (fun w => (dats m 0 c).arrAt w cfg0.N)
    (Proc.devRef .tc (Pipeline.arrRef spec0 1))) Facts₀.shapeCasts_S64x2000x494_S128000x494 = _
  rw [(Pipeline.withArrays_arr spec0 launch0.win.arr_inj c _ _ 1).trans (final m c)]
  exact merge_eq zero (arg m c)

/-- THE RUN, read: the result buffer ends at the unfold of the argument, the argument unchanged. -/
theorem run : θ_run defs (onTc (τ := τ) (main (F := F))) ⟨m, fun _ => 0, ρ⟩ fun r => ∀ c : Dev nD,
      r.2.mem ((c.tc : Thread nD τ).loc main_v1) = unfold2 zero (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c)))⟩)
    (run_main m ρ)

end Cert.KernelIdeal.Window

end
-- ==== Proof.Reference.lean ====
/-
  The reference, read at an index: it is the unfold of the specification.

  The reference pads x along the time axis with nine rows of its padding value before and after, gathers, for every
  time t and window position w, row start(t, w) of the padded array (all batches, all channels), and merges the
  axes. The start index is t + w computed in 32-bit integers, with 2018 added where the sum is negative: the sum
  is at most 1999 + 18, so it is never negative as a signed word, nothing is added, and the gather's clamp into
  0 … 2017 does not move it. So entry (b, t, w, c) of the gathered array is channel c of padded row t + w of
  batch b, and the merged result's entry (i, l) is the specification's.
-/
import proofs.«174363_j84963043050043_2_alg».proof.Proof.Gen.ReferenceIdeal.Read
import proofs.«174363_j84963043050043_2_alg».proof.Proof.Spec
import Idealize.ShloMosaic.Lib.Pipeline.Value
import Idealize.ShloMosaic.Lib.ValueIdx
import Idealize.ShloMosaic.Lib.KernelVsHost

noncomputable section

open Idealize.ShloMosaic Idealize.ShloMosaic.ValueIdx

namespace Cert.ReferenceIdeal.Window

open Cert.ReferenceIdeal Cert.ReferenceIdeal.Gen Cert.ReferenceIdeal.Read Cert.Window

variable {F : FTy → Type} [FloatOps F]

/-- The sum of a time below 2000 and a window position below 19, as 32-bit words: not negative, so the select keeps
    it, and read back as a signed integer it is the sum. -/
theorem start_word (t w : ℕ) (ht : t < 2000) (hw : w < 19) :
    (Scalar.select (IntOp.cmpi .slt (IntOp.addi (BitVec.ofNat 32 t) (BitVec.ofNat 32 w)) 0#32)
      (IntOp.addi (IntOp.addi (BitVec.ofNat 32 t) (BitVec.ofNat 32 w)) 2018#32)
      (IntOp.addi (BitVec.ofNat 32 t) (BitVec.ofNat 32 w))).toInt.toNat = t + w := by
  have e : IntOp.addi (BitVec.ofNat 32 t) (BitVec.ofNat 32 w) = BitVec.ofNat 32 (t + w) := by
    unfold IntOp.addi; rw [BitVec.ofNat_add]
  rw [e]
  have hn : (BitVec.ofNat 32 (t + w)).toNat = t + w := by
    rw [BitVec.toNat_ofNat]; exact Nat.mod_eq_of_lt (by omega)
  have hi : (BitVec.ofNat 32 (t + w)).toInt = ((t + w : ℕ) : ℤ) := by
    rw [BitVec.toInt_eq_toNat_cond, hn, if_pos (by omega)]
  have hc : IntOp.cmpi .slt (BitVec.ofNat 32 (t + w)) 0#32 = 0#1 := by
    unfold IntOp.cmpi
    show BitVec.ofBool ((BitVec.ofNat 32 (t + w)).slt 0#32) = 0#1
    have : (BitVec.ofNat 32 (t + w)).slt 0#32 = false := by
      unfold BitVec.slt
      rw [hi]
      simp
      omega
    rw [this]; rfl
  rw [hc]
  unfold Scalar.select
  rw [if_neg (by decide), hi]
  omega

/-- The start index the reference computes for time t and window position w is t + w. -/
theorem start_at (t : Fin 2000) (w : Fin 19) :
    (val_main_v13 (F := F) (ix3 t w ⟨0, Nat.one_pos⟩)).toInt.toNat = t.val + w.val := by
  rw [val_main_v13_apply, val_main_v12_apply, val_main_v9_apply, val_main_v11_apply, val_main_v7_apply,
    val_main_v5_apply, val_main_v6_apply, val_main_v2_apply, val_main_v4_apply, val_main_v1_apply,
    val_main_v3_apply, val_main_v8_apply, val_main_v10_apply, val_main_c_0_apply, val_main_c_1_apply]
  exact start_word t.val w.val t.isLt w.isLt

/-- The reference's gather. -/
abbrev gd : GatherDims S64x2018x26 S2000x19x1 S64x2000x19x26 :=
  gather_S64x2018x26_S2000x19x1_S64x2000x19x26_03_1_n_n_1_2_64126

/-- THE GATHER READ AT (b, t, w, c): the operand at batch b, channel c, and the row the start index [t, w, 0]
    names, read signed and clamped into 0 … 2017 (the operand's rows less the slice's one). Batch and channel are
    the result's offset coordinates, the row axis is the collapsed one the start index addresses. -/
theorem gather_apply {α : Type} (x : S64x2018x26.Idx → α) (idx : IVec S2000x19x1 32)
    (b : Fin 64) (t : Fin 2000) (w : Fin 19) (c : Fin 26) :
    Host.gather gd x idx (ix4 b t w c)
      = x (ix3 b ⟨min (idx (ix3 t w ⟨0, Nat.one_pos⟩)).toInt.toNat 2017, by omega⟩ c) := by
  unfold Host.gather
  congr 1
  funext a
  refine Fin.ext ?_
  match a with
  | ⟨0, _⟩ =>
    have hs : gd.start (ix4 b t w c) idx (0 : Fin 3) = 0 := rfl
    have hb : gd.batchCoord (ix4 b t w c) (0 : Fin 3) = 0 := rfl
    have ho : gd.offCoord (ix4 b t w c) (0 : Fin 3) = b.val := rfl
    show gd.start (ix4 b t w c) idx (0 : Fin 3) + gd.batchCoord (ix4 b t w c) (0 : Fin 3)
      + gd.offCoord (ix4 b t w c) (0 : Fin 3) = b.val
    rw [hs, hb, ho]; omega
  | ⟨1, _⟩ =>
    have hb : gd.batchCoord (ix4 b t w c) (1 : Fin 3) = 0 := rfl
    have ho : gd.offCoord (ix4 b t w c) (1 : Fin 3) = 0 := rfl
    have hs : gd.start (ix4 b t w c) idx (1 : Fin 3) = min (idx (ix3 t w ⟨0, Nat.one_pos⟩)).toInt.toNat 2017 := by
      unfold GatherDims.start
      rw [dif_pos (show (1 : Fin 3) ∈ gd.startIndexMap from List.mem_singleton.mpr rfl)]
      have hsi : gd.siIdx (ix4 b t w c) ⟨List.idxOf (1 : Fin 3) gd.startIndexMap,
          List.idxOf_lt_length_iff.2 (List.mem_singleton.mpr rfl)⟩ = ix3 t w ⟨0, Nat.one_pos⟩ := by
        funext b'
        refine Fin.ext ?_
        match b' with
        | ⟨0, _⟩ => rfl
        | ⟨1, _⟩ => rfl
        | ⟨2, _⟩ => rfl
      rw [hsi]
      rfl
    show gd.start (ix4 b t w c) idx (1 : Fin 3) + gd.batchCoord (ix4 b t w c) (1 : Fin 3)
      + gd.offCoord (ix4 b t w c) (1 : Fin 3) = min (idx (ix3 t w ⟨0, Nat.one_pos⟩)).toInt.toNat 2017
    rw [hs, hb, ho]; omega
  | ⟨2, _⟩ =>
    have hs : gd.start (ix4 b t w c) idx (2 : Fin 3) = 0 := rfl
    have hb : gd.batchCoord (ix4 b t w c) (2 : Fin 3) = 0 := rfl
    have ho : gd.offCoord (ix4 b t w c) (2 : Fin 3) = c.val := rfl
    show gd.start (ix4 b t w c) idx (2 : Fin 3) + gd.batchCoord (ix4 b t w c) (2 : Fin 3)
      + gd.offCoord (ix4 b t w c) (2 : Fin 3) = c.val
    rw [hs, hb, ho]; omega

/-- THE PAD READ AT (b, p, c): the padding value in the nine rows before and after the series, row p - 9 of x
    in between. -/
theorem pad_apply (x0 : S64x2000x26.Idx → F .f32) (b : Fin 64) (p : Fin 2018) (c : Fin 26) :
    val_main_v0 (F := F) x0 (ix3 b p c) = padded (val_main_call0_v0 (F := F) ix0) x0 b.val p.val c.val := by
  have hb : b.val < 64 := b.isLt
  have hc : c.val < 26 := c.isLt
  unfold val_main_v0 padded
  by_cases h : 9 ≤ p.val ∧ p.val < 2009
  · rw [dif_pos (show b.val < 64 ∧ 9 ≤ p.val ∧ p.val < 2009 ∧ c.val < 26 from ⟨hb, h.1, h.2, hc⟩)]
    exact pad_apply_of_inside _ _ _ _ _ _ _ (ix3 b p c) (ix3 ⟨b.val, hb⟩ ⟨p.val - 9, by omega⟩ ⟨c.val, hc⟩)
      (fun a => by
        match a with
        | ⟨0, _⟩ => show b.val = 0 + b.val * (0 + 1); omega
        | ⟨1, _⟩ => show p.val = 9 + (p.val - 9) * (0 + 1); omega
        | ⟨2, _⟩ => show c.val = 0 + c.val * (0 + 1); omega)
  · rw [dif_neg (fun h' => h ⟨h'.2.1, h'.2.2.1⟩)]
    refine (pad_apply_of_not_inside _ _ _ _ _ _ _ (ix3 b p c) (1 : Fin 3) (fun h' => h ?_)).trans
      (congrArg _ (eq_ix0 _))
    have h1 : 9 ≤ p.val := h'.1
    have h2 : (p.val - 9) / (0 + 1) < 2000 := h'.2.2
    exact ⟨h1, by omega⟩

/-- THE REFERENCE IS THE UNFOLD: its result at (i, l) is channel l % 26 of padded row i % 2000 + l / 26 of batch
    i / 2000 — the merged axes split by row-major position, the gather and the pad read where they say. -/
theorem result_eq (x0 : S64x2000x26.Idx → F .f32) :
    val_main_v15 (F := F) x0 = unfold2 (val_main_call0_v0 (F := F) ix0) x0 := by
  funext i
  have h0 : (i 0).val < 128000 := (i 0).isLt
  have h1 : (i 1).val < 494 := (i 1).isLt
  rw [val_main_v15_apply]
  unfold val_main_v14
  have hidx : idx_main_v15 i = ix4
      (⟨((i 0).val * 494 + (i 1).val) / 988000, by omega⟩ : Fin 64)
      (⟨((i 0).val * 494 + (i 1).val) / 494 % 2000, by omega⟩ : Fin 2000)
      (⟨((i 0).val * 494 + (i 1).val) / 26 % 19, by omega⟩ : Fin 19)
      (⟨((i 0).val * 494 + (i 1).val) % 26, by omega⟩ : Fin 26) := by
    funext a
    match a with
    | ⟨0, _⟩ => rfl
    | ⟨1, _⟩ => rfl
    | ⟨2, _⟩ => rfl
    | ⟨3, _⟩ => rfl
  rw [hidx]
  refine (gather_apply _ _ _ _ _ _).trans ?_
  refine (pad_apply x0 _ _ _).trans ?_
  unfold unfold2
  refine padded_congr _ _ ?_ ?_ ?_
  · show ((i 0).val * 494 + (i 1).val) / 988000 = (i 0).val / 2000
    omega
  · show min (val_main_v13 (F := F) (ix3 (⟨((i 0).val * 494 + (i 1).val) / 494 % 2000, by omega⟩ : Fin 2000)
        (⟨((i 0).val * 494 + (i 1).val) / 26 % 19, by omega⟩ : Fin 19) ⟨0, Nat.one_pos⟩)).toInt.toNat 2017
      = (i 0).val % 2000 + (i 1).val / 26
    rw [start_at]
    show min (((i 0).val * 494 + (i 1).val) / 494 % 2000 + ((i 0).val * 494 + (i 1).val) / 26 % 19) 2017
      = (i 0).val % 2000 + (i 1).val / 26
    omega
  · show ((i 0).val * 494 + (i 1).val) % 26 = (i 1).val % 26
    omega

end Cert.ReferenceIdeal.Window

end
-- ==== Proof.lean ====
/-
  The sliding-window unfold kernel against its gather reference: both compute, from x : [64, 2000, 26], the array
  [128000, 494] whose entry (b * 2000 + t, w * 26 + c) is channel c of row t + w of batch b's series padded with
  nine zero rows before and after. Nothing is computed on the values — they are moved, and zeros are written — so
  the two results are equal entry by entry whatever the inputs hold, infinite or not; the one value both programs
  create is the padding zero, the word of +0.0 in the kernel and the integer 0 converted to a float in the
  reference, both the extended real 0.

  The kernel pads inside its body: at a batch's first time tile it stores the padded series into a scratch that the
  next four tiles of the batch read (Proof/Pieces, Proof/Tiles: by induction over the grid points the scratch always
  holds the current batch's padded series); each tile stores the 19 shifted copies of its 400 + 18 rows side by side
  (Proof/Payload), the blocks tile the output array (Proof/Result), and the host line after the kernel merges batch
  and time. The reference pads on the host, gathers row t + w for every (t, w), and merges the axes
  (Proof/Reference). The frames of the two kernels are the generated ones; the reference's is its run with the
  result dropped; the idealization rewrote nothing.
-/
import proofs.«174363_j84963043050043_2_alg».proof.Defs
import proofs.«174363_j84963043050043_2_alg».proof.Proof.Gen.Kernel
import proofs.«174363_j84963043050043_2_alg».proof.Proof.Gen.Kernel.Skeleton
import proofs.«174363_j84963043050043_2_alg».proof.Proof.Gen.Kernel.Launch
import proofs.«174363_j84963043050043_2_alg».proof.Proof.Gen.Kernel.Points
import proofs.«174363_j84963043050043_2_alg».proof.Proof.Gen.Kernel.Frame
import proofs.«174363_j84963043050043_2_alg».proof.Proof.Gen.KernelIdeal
import proofs.«174363_j84963043050043_2_alg».proof.Proof.Gen.KernelIdeal.Skeleton
import proofs.«174363_j84963043050043_2_alg».proof.Proof.Gen.KernelIdeal.Launch
import proofs.«174363_j84963043050043_2_alg».proof.Proof.Gen.KernelIdeal.Points
import proofs.«174363_j84963043050043_2_alg».proof.Proof.Gen.KernelIdeal.Frame
import proofs.«174363_j84963043050043_2_alg».proof.Proof.Gen.ReferenceIdeal
import proofs.«174363_j84963043050043_2_alg».proof.Proof.Gen.ReferenceIdeal.Run
import proofs.«174363_j84963043050043_2_alg».proof.Proof.Gen.ReferenceIdeal.Read
import proofs.«174363_j84963043050043_2_alg».proof.Proof.Gen.Pre_finite_inputs
import proofs.«174363_j84963043050043_2_alg».proof.Proof.Result
import proofs.«174363_j84963043050043_2_alg».proof.Proof.Reference
import Idealize.ShloMosaic.PureOps.Ideal.Laws
import Idealize.ShloMosaic.Adequacy
import Idealize.ShloMosaic.Init

noncomputable section

namespace Cert.Proof

open Idealize.ShloMosaic Idealize.ShloMosaic.TcCoe Idealize.SL.Sem Idealize.ShloMosaic.ValueIdx Cert.Window

/-- The two padding values are one extended real: the reference's integer 0 converted to a float, and the kernel's
    word of +0.0, are both 0. -/
theorem pad_value : Cert.ReferenceIdeal.Read.val_main_call0_v0 (F := Ideal) ix0 = Cert.KernelIdeal.Window.zero (F := Ideal) := by
  rw [Cert.ReferenceIdeal.Read.val_main_call0_v0_apply, Cert.ReferenceIdeal.Read.val_main_c_apply]
  show (((0#32 : BitVec 32).toInt : ℝ) : EReal) = Ideal.ofBits .f32 0x00000000#32
  rw [Ideal.ofBits_zero_f32]
  simp

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result buffer at the unfold of the (agreeing) argument arrays, padded with 0. -/
theorem algebraic : Cert.algebraic_KernelIdeal_ReferenceIdeal := by
  intro m ρ m' ρ' _ hagree
  refine ⟨fun c => unfold2 (Cert.KernelIdeal.Window.zero (F := Ideal))
      (m ((c.tc : Thread Cert.KernelIdeal.nD Cert.KernelIdeal.τ).loc Cert.KernelIdeal.main_arg0)),
    Cert.KernelIdeal.Window.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Window.result_eq, pad_value, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
